-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x2048 : Shape := ⟨3, ![8, 256, 2048]⟩
abbrev S_ : Shape := ⟨0, ![]⟩

class Facts : Prop where
  bcast_S_S8x256x2048 : S_.BroadcastsInDim S8x256x2048 (![] : Fin 0 → Fin S8x256x2048.rank)
  reducesTo_S8x256x2048_S_d0_1_2 : S8x256x2048.ReducesTo [0, 1, 2] S_
  h_S_ : 0 < S_.numel

variable [Facts]

def fn {F : FTy → Type} [FloatOps F] (main_arg0 : FVec F S8x256x2048 .f32) (main_arg1 : FVec F S8x256x2048 .f32) (main_arg2 : FVec F S8x256x2048 .f32) : IVec S_ 1 :=
  let main_v0 : FVec F S8x256x2048 .f32 := Host.absf main_arg0
  let main_cst : FVec F S_ .f32 := constant S_ .f32 0x7F800000#32
  let main_v1 : FVec F S8x256x2048 .f32 := broadcastInDim S8x256x2048 ![] bcast_S_S8x256x2048 main_cst
  let main_v2 : IVec S8x256x2048 1 := cmpf .olt main_v0 main_v1
  let main_c : IVec S_ 1 := constantI S_ 1 1#1
  let main_v3 : IVec S_ 1 := (fun x v => Host.reduce IntOp.andi x v reducesTo_S8x256x2048_S_d0_1_2 h_S_) main_v2 main_c
  let main_v4 : FVec F S8x256x2048 .f32 := Host.absf main_arg1
  let main_cst_0 : FVec F S_ .f32 := constant S_ .f32 0x7F800000#32
  let main_v5 : FVec F S8x256x2048 .f32 := broadcastInDim S8x256x2048 ![] bcast_S_S8x256x2048 main_cst_0
  let main_v6 : IVec S8x256x2048 1 := cmpf .olt main_v4 main_v5
  let main_c_1 : IVec S_ 1 := constantI S_ 1 1#1
  let main_v7 : IVec S_ 1 := (fun x v => Host.reduce IntOp.andi x v reducesTo_S8x256x2048_S_d0_1_2 h_S_) main_v6 main_c_1
  let main_v8 : IVec S_ 1 := andi main_v3 main_v7
  let main_v9 : FVec F S8x256x2048 .f32 := Host.absf main_arg2
  let main_cst_2 : FVec F S_ .f32 := constant S_ .f32 0x7F800000#32
  let main_v10 : FVec F S8x256x2048 .f32 := broadcastInDim S8x256x2048 ![] bcast_S_S8x256x2048 main_cst_2
  let main_v11 : IVec S8x256x2048 1 := cmpf .olt main_v9 main_v10
  let main_c_3 : IVec S_ 1 := constantI S_ 1 1#1
  let main_v12 : IVec S_ 1 := (fun x v => Host.reduce IntOp.andi x v reducesTo_S8x256x2048_S_d0_1_2 h_S_) main_v11 main_c_3
  let main_v13 : IVec S_ 1 := andi main_v8 main_v12
  main_v13
-- ==== Kernel.lean ====
abbrev S8x256x2048 : Shape := ⟨3, ![8, 256, 2048]⟩
abbrev S8x2048x2048 : Shape := ⟨3, ![8, 2048, 2048]⟩
abbrev S1x256x512 : Shape := ⟨3, ![1, 256, 512]⟩
abbrev S1x256x2048 : Shape := ⟨3, ![1, 256, 2048]⟩
abbrev S1x2048x512 : Shape := ⟨3, ![1, 2048, 512]⟩
abbrev S256x2048 : Shape := ⟨2, ![256, 2048]⟩
abbrev S256x512 : Shape := ⟨2, ![256, 512]⟩
abbrev S2048x512 : Shape := ⟨2, ![2048, 512]⟩
abbrev S512 : Shape := ⟨1, ![512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S8x256x2048, .f32⟩
  | .hbm, ⟨3, _⟩ => ⟨S8x256x2048, .f32⟩
  | .hbm, ⟨4, _⟩ => ⟨S8x2048x2048, .f32⟩
  | .local _ .vmem, ⟨0, _⟩ => ⟨S1x256x512, .f32⟩
  | .local _ .vmem, ⟨1, _⟩ => ⟨S1x256x512, .f32⟩
  | .local _ .vmem, ⟨2, _⟩ => ⟨S1x256x2048, .f32⟩
  | .local _ .vmem, ⟨3, _⟩ => ⟨S1x256x2048, .f32⟩
  | .local _ .vmem, ⟨4, _⟩ => ⟨S1x256x512, .f32⟩
  | .local _ .vmem, ⟨5, _⟩ => ⟨S1x256x512, .f32⟩
  | .local _ .vmem, ⟨6, _⟩ => ⟨S1x2048x512, .f32⟩
  | .local _ .vmem, ⟨7, _⟩ => ⟨S1x2048x512, .f32⟩
  | .local _ .vmem, ⟨8, _⟩ => ⟨S256x2048, .bf16⟩
  | .local _ .vmem, ⟨9, _⟩ => ⟨S256x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S2048x512_S512 : S2048x512.Reduces [0] S512
  shapeCasts_S512_S1x512 : S512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  shapeCasts_S256x512_S1x256x512 : S256x512.ShapeCasts S1x256x512
  dot_S256x2048_S256x512_S2048x512_0_0_1_1_n_n_wf : DotDims.WF S256x2048 S256x512 S2048x512 [0] [0] [1] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x256x2048.size a
  hwx0_0 : ∀ i : grid0.Coords, EltTy.bits .f32 = 32 ∨ (Rect.block (s := S8x256x2048) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x256x2048.size a
  hwx0_1 : ∀ i : grid0.Coords, EltTy.bits .f32 = 32 ∨ (Rect.block (s := S8x256x2048) S1x256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S8x256x2048.size a
  hwx0_2 : ∀ i : grid0.Coords, EltTy.bits .f32 = 32 ∨ (Rect.block (s := S8x256x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S8x256x2048.size a
  hwx0_3 : ∀ i : grid0.Coords, EltTy.bits .f32 = 32 ∨ (Rect.block (s := S8x256x2048) S1x256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S8x2048x2048.size a
  hwx0_4 : ∀ i : grid0.Coords, EltTy.bits .f32 = 32 ∨ (Rect.block (s := S8x2048x2048) S1x2048x512.size (cc0_transform_4 i) (hinb0_4 i)).WholeWords (EltTy.packing .f32)

variable [Facts₀]

def dot_S256x2048_S256x512_S2048x512_0_0_1_1_n_n : DotDims S256x2048 S256x512 S2048x512 where
  lhsContracting := [0]
  rhsContracting := [0]
  lhsNonContracting := [1]
  rhsNonContracting := [1]
  lhsBatch := []
  rhsBatch := []
  wf := dot_S256x2048_S256x512_S2048x512_0_0_1_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x2048 : Shape := ⟨3, ![8, 256, 2048]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S8x256x2048, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S8x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x256x2048_S8x256x2048_S8x2048x2048_1_1_2_2_0_0_wf : DotDims.WF S8x256x2048 S8x256x2048 S8x2048x2048 [1] [1] [2] [2] [0] [0]
  dot_S8x256x2048_S8x2048x2048_S8x256x2048_2_1_1_2_0_0_wf : DotDims.WF S8x256x2048 S8x2048x2048 S8x256x2048 [2] [1] [1] [2] [0] [0]

variable [Facts₀]

def dot_S8x256x2048_S8x256x2048_S8x2048x2048_1_1_2_2_0_0 : DotDims S8x256x2048 S8x256x2048 S8x2048x2048 where
  lhsContracting := [1]
  rhsContracting := [1]
  lhsNonContracting := [2]
  rhsNonContracting := [2]
  lhsBatch := [0]
  rhsBatch := [0]
  wf := dot_S8x256x2048_S8x256x2048_S8x2048x2048_1_1_2_2_0_0_wf
def dot_S8x256x2048_S8x2048x2048_S8x256x2048_2_1_1_2_0_0 : DotDims S8x256x2048 S8x2048x2048 S8x256x2048 where
  lhsContracting := [2]
  rhsContracting := [1]
  lhsNonContracting := [1]
  rhsNonContracting := [2]
  lhsBatch := [0]
  rhsBatch := [0]
  wf := dot_S8x256x2048_S8x2048x2048_S8x256x2048_2_1_1_2_0_0_wf

class Facts : Prop extends Facts₀ where

variable [Facts]
-- ==== Proof.LibSumScale.lean ====
/-
  A finite sum on the extended reals times a nonnegative finite factor.

  Multiplication on `EReal` does not distribute over addition in general (`⊤ + ⊥ = ⊥` breaks it for a negative
  factor), but it does for a factor `x` with `0 ≤ x` and `x ≠ ⊤`: `(y + z) * x = y * x + z * x` for ALL `y z`, the
  infinities included. Hence a scale of that kind moves in and out of a finite sum with no finiteness of the terms,
  and, multiplication being associative and commutative, in and out of a sum of products:
  `∑ c, a c * (b c * x) = (∑ c, a c * b c) * x`.
-/
import Mathlib.Data.EReal.Inv
import Mathlib.Algebra.BigOperators.Group.Finset.Basic

open scoped BigOperators

namespace LibSumScale

/-- A finite sum times a nonnegative factor other than `⊤` is the sum of the terms times that factor. -/
theorem sum_mul {ι : Type*} (s : Finset ι) (f : ι → EReal) {x : EReal} (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-- A contraction whose right factor carries a nonnegative finite scale is the unscaled contraction times the
    scale. -/
theorem sum_mul_scaled {ι : Type*} (s : Finset ι) (a b : ι → EReal) {x : EReal} (hx : 0 ≤ x) (hx' : x ≠ ⊤) :
    ∑ i ∈ s, a i * (b i * x) = (∑ i ∈ s, a i * b i) * x := by
  rw [sum_mul s _ hx hx']
  exact Finset.sum_congr rfl fun i _ => (mul_assoc (a i) (b i) x).symm

end LibSumScale
-- ==== Proof.Spec.lean ====
/-
  What both programs compute, as ONE function of the three argument arrays `q k v : [8, 256, 2048]` on the extended
  reals (batch `b`, channel `c`, position `n`):

    logit b j i      = (∑ c, k[b, c, i] * q[b, c, j]) * (1/16)          the scaled score of key `i` for query `j`
    weights[b, i, j] = exp (logit b j i - M) / ∑ i', exp (logit b j i' - M)   with `M` the maximum of the column
                                                                        `i' ↦ logit b j i'` (a softmax over the keys)
    out[b, c, j]     = ∑ i, v[b, c, i] * weights[b, i, j]

  The column maximum is kept as the fold of `max` over the 2048 keys from the pattern of `-∞`, the form in which both a
  lane reduction and a host reduction over one axis read; the scale is kept as the pattern `0x3D800000`, of which only
  `0 ≤ ·` and `· ≠ ⊤` are used (it denotes 1/16).
-/
import Idealize.ShloMosaic.PureOps.Ideal
import Mathlib.Data.Finset.Fold
import Idealize.ShloMosaic.Lib.ValueIdx
import proofs.«149729_j88888643158200_2_alg».proof.Proof.LibSumScale

noncomputable section

namespace Cert.AttnSpec

open Idealize.ShloMosaic Idealize.ShloMosaic.ValueIdx
open scoped BigOperators

/-- The score scale as the programs spell it: the f32 pattern of `0.0625`. -/
abbrev scale : EReal := Ideal.ofBits .f32 0x3D800000#32

/-- The pattern of `-∞`, from which both programs start their column maximum. -/
abbrev negInf : EReal := Ideal.ofBits .f32 0xFF800000#32

/-- The scale denotes the real `1/16`. -/
theorem scale_eq : scale = ((1 / 16 : ℝ) : EReal) := by
  simp [scale, Ideal.ofBits, Ideal.ieee, -EReal.coe_mul]; norm_num

theorem scale_nonneg : 0 ≤ scale := by
  rw [scale_eq]; exact_mod_cast (by norm_num : (0 : ℝ) ≤ 1 / 16)

theorem scale_ne_top : scale ≠ ⊤ := by
  rw [scale_eq]; exact EReal.coe_ne_top _

/-- An argument array, and the two result arrays. -/
abbrev Arg : Type := (⟨3, ![8, 256, 2048]⟩ : Shape).Idx → EReal
abbrev Wts : Type := (⟨3, ![8, 2048, 2048]⟩ : Shape).Idx → EReal

/-- The maximum of a column of 2048 scores, folded from `-∞`. -/
def colMax (L : Fin 2048 → EReal) : EReal := (Finset.univ : Finset (Fin 2048)).fold max negInf L

/-- The shifted exponential of entry `i` of a column. -/
def colExp (L : Fin 2048 → EReal) (i : Fin 2048) : EReal := Ideal.exp (L i - colMax L)

/-- The softmax of a column, at entry `i`. -/
def colSoftmax (L : Fin 2048 → EReal) (i : Fin 2048) : EReal := Ideal.div (colExp L i) (∑ i' : Fin 2048, colExp L i')

/-- The scaled scores of query `j` of batch `b`, as a column over the keys `i`. -/
def logit (q k : Arg) (b : Fin 8) (j : Fin 2048) (i : Fin 2048) : EReal :=
  (∑ c : Fin 256, k (ix3 b c i) * q (ix3 b c j)) * scale

/-- The attention weights `[8, 2048, 2048]`: entry `(b, i, j)` is the softmax over the keys of query `j`'s column at `i`. -/
def weights (q k : Arg) : Wts := fun y => colSoftmax (logit q k (y 0) (y 2)) (y 1)

/-- The output `[8, 256, 2048]`: the values contracted with the weights over the keys. -/
def outp (q k v : Arg) : Arg := fun y => ∑ i : Fin 2048, v (ix3 (y 0) (y 1) i) * weights q k (ix3 (y 0) i (y 2))

/-- The column of scores one grid step forms for column `j` of its query block: the `[256, 2048]` key slab `K` contracted
    over the channels with the `[1, 256, 512]` query block `Q`, each query entry scaled BEFORE the contraction. -/
def blockLogit (K : (⟨2, ![256, 2048]⟩ : Shape).Idx → EReal) (Q : (⟨3, ![1, 256, 512]⟩ : Shape).Idx → EReal)
    (j : Fin 512) (i : Fin 2048) : EReal :=
  ∑ c : Fin 256, K (ix2 c i) * (Q (ix3 (0 : Fin 1) c j) * scale)

/-- Scaling the query entries before the contraction gives the same score: the scale is nonnegative and finite, so it
    moves out of the sum whatever the terms are. -/
theorem logit_eq_prescaled (q k : Arg) (b : Fin 8) (j i : Fin 2048) :
    ∑ c : Fin 256, k (ix3 b c i) * (q (ix3 b c j) * scale) = logit q k b j i :=
  LibSumScale.sum_mul_scaled _ _ _ scale_nonneg scale_ne_top

/-- The fold of `max` from `-∞` already dominates `-∞`: taking the maximum with `-∞` once more changes nothing. -/
theorem max_negInf_colMax (L : Fin 2048 → EReal) : max negInf (colMax L) = colMax L :=
  max_eq_right ((Finset.le_fold_max _).mpr (Or.inl le_rfl))

end Cert.AttnSpec

end
-- ==== Proof.PieceValue.lean ====
/-
  What the kernel body leaves behind at one grid step, read back as VALUES.

  The generated frame runs the body once per control case and records, per output block and per scratch buffer, the
  pieces the body's stores left. Here each of those is read back as a pure term of the step's input blocks: the first
  step of a batch (grid position `t` with `t % 4 = 0`) stores the key and value blocks, re-laid as `[256, 2048]`, into
  the two scratch buffers and then computes from what it has just stored; a later step computes from the scratch as the
  step before left it. Either way the weights block is the softmax payload `k0_pay4` of the key scratch and the query
  block, and the output block the payload `k0_pay5` of both scratch buffers and the query block.
-/
import proofs.«149729_j88888643158200_2_alg».proof.Proof.Gen.KernelIdeal.Frame
import Idealize.ShloMosaic.Lib.Pipeline.Value
import Idealize.ShloMosaic.Lib.Tactic

noncomputable section

namespace Cert.KernelIdeal.PieceValue

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## Case B (a step that is not the first of its batch): the scratch is as the step before left it -/

/-- The weights block a later step of a batch stores: the softmax payload of the carried key slab and the query block. -/
theorem out_B_4 (c : Dev nD) (i : grid0.Coords) (arg2 : Memref sig .tc .vmem S1x256x512 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x512 .f32) (harg5 : arg5.IsWhole) (arg6 : Memref sig .tc .vmem S1x2048x512 .f32) (harg6 : arg6.IsWhole) (arg7 : Memref sig .tc .vmem S256x2048 .bf16) (harg7 : arg7.IsWhole) (arg8 : Memref sig .tc .vmem S256x2048 .bf16) (harg8 : arg8.IsWhole) (hc0 : ¬cond0_0 i) (x0 : Vec F S1x256x512 .f32) (x1 : Vec F S1x256x2048 .f32) (x2 : Vec F S1x256x2048 .f32) (xs0 xs1 : Vec F S256x2048 .bf16) :
    out0_B_4 c i arg2 harg2 arg3 harg3 arg4 harg4 arg5 harg5 arg6 harg6 arg7 harg7 arg8 harg8 hc0 x0 x1 x2 xs0 xs1 = k0_pay4 xs0 x0 := by
  unfold out0_B_4
  rw [View.read_writes_eq_canon _ _ _ (cover0_B_4 c i arg2 harg2 arg3 harg3 arg4 harg4 arg5 harg5 arg6 harg6 arg7 harg7 arg8 harg8 hc0 x0 x1 x2 xs0 xs1)]
  unfold kernelRun0_B
  dsimp only
  rw [View.canon_unit_zero hz3]
  simp only [View.readAt_eq_ld, harg2.read_unread, harg3.read_unread, harg4.read_unread, harg7.read_unread, harg8.read_unread, View.ld_unit_zero (S := S256x2048) hz2, View.ld_unit_zero (S := S1x256x512) hz3, View.ld_unit_zero (S := S1x256x2048) hz3, View.ld_unit_zero (S := S1x2048x512) hz3]

/-- The output block a later step of a batch stores: the carried value slab contracted with the weights. -/
theorem out_B_3 (c : Dev nD) (i : grid0.Coords) (arg2 : Memref sig .tc .vmem S1x256x512 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x512 .f32) (harg5 : arg5.IsWhole) (arg6 : Memref sig .tc .vmem S1x2048x512 .f32) (harg6 : arg6.IsWhole) (arg7 : Memref sig .tc .vmem S256x2048 .bf16) (harg7 : arg7.IsWhole) (arg8 : Memref sig .tc .vmem S256x2048 .bf16) (harg8 : arg8.IsWhole) (hc0 : ¬cond0_0 i) (x0 : Vec F S1x256x512 .f32) (x1 : Vec F S1x256x2048 .f32) (x2 : Vec F S1x256x2048 .f32) (xs0 xs1 : Vec F S256x2048 .bf16) :
    out0_B_3 c i arg2 harg2 arg3 harg3 arg4 harg4 arg5 harg5 arg6 harg6 arg7 harg7 arg8 harg8 hc0 x0 x1 x2 xs0 xs1 = k0_pay5 xs0 xs1 x0 := by
  unfold out0_B_3
  rw [View.read_writes_eq_canon _ _ _ (cover0_B_3 c i arg2 harg2 arg3 harg3 arg4 harg4 arg5 harg5 arg6 harg6 arg7 harg7 arg8 harg8 hc0 x0 x1 x2 xs0 xs1)]
  unfold kernelRun0_B
  dsimp only
  rw [View.canon_unit_zero hz3]
  simp only [View.readAt_eq_ld, harg2.read_unread, harg3.read_unread, harg4.read_unread, harg7.read_unread, harg8.read_unread, View.ld_unit_zero (S := S256x2048) hz2, View.ld_unit_zero (S := S1x256x512) hz3, View.ld_unit_zero (S := S1x256x2048) hz3, View.ld_unit_zero (S := S1x2048x512) hz3]

/-! ## Case A (the first step of a batch): the scratch is stored whole from the key and value blocks, then read back -/

/-- The first step of a batch leaves the key block, re-laid and narrowed, in the first scratch. -/
theorem sout_A_0 (c : Dev nD) (i : grid0.Coords) (arg2 : Memref sig .tc .vmem S1x256x512 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x512 .f32) (harg5 : arg5.IsWhole) (arg6 : Memref sig .tc .vmem S1x2048x512 .f32) (harg6 : arg6.IsWhole) (arg7 : Memref sig .tc .vmem S256x2048 .bf16) (harg7 : arg7.IsWhole) (arg8 : Memref sig .tc .vmem S256x2048 .bf16) (harg8 : arg8.IsWhole) (hc0 : cond0_0 i) (x0 : Vec F S1x256x512 .f32) (x1 : Vec F S1x256x2048 .f32) (x2 : Vec F S1x256x2048 .f32) :
    sout0_A_0 c i arg2 harg2 arg3 harg3 arg4 harg4 arg5 harg5 arg6 harg6 arg7 harg7 arg8 harg8 hc0 x0 x1 x2 = k0_pay1 x1 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg2.read_unread, harg3.read_unread, harg4.read_unread, harg7.read_unread, harg8.read_unread, View.ld_unit_zero (S := S256x2048) hz2, View.ld_unit_zero (S := S1x256x512) hz3, View.ld_unit_zero (S := S1x256x2048) hz3, View.ld_unit_zero (S := S1x2048x512) hz3]

/-- … and the value block in the second. -/
theorem sout_A_1 (c : Dev nD) (i : grid0.Coords) (arg2 : Memref sig .tc .vmem S1x256x512 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x512 .f32) (harg5 : arg5.IsWhole) (arg6 : Memref sig .tc .vmem S1x2048x512 .f32) (harg6 : arg6.IsWhole) (arg7 : Memref sig .tc .vmem S256x2048 .bf16) (harg7 : arg7.IsWhole) (arg8 : Memref sig .tc .vmem S256x2048 .bf16) (harg8 : arg8.IsWhole) (hc0 : cond0_0 i) (x0 : Vec F S1x256x512 .f32) (x1 : Vec F S1x256x2048 .f32) (x2 : Vec F S1x256x2048 .f32) :
    sout0_A_1 c i arg2 harg2 arg3 harg3 arg4 harg4 arg5 harg5 arg6 harg6 arg7 harg7 arg8 harg8 hc0 x0 x1 x2 = k0_pay2 x2 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg2.read_unread, harg3.read_unread, harg4.read_unread, harg7.read_unread, harg8.read_unread, View.ld_unit_zero (S := S256x2048) hz2, View.ld_unit_zero (S := S1x256x512) hz3, View.ld_unit_zero (S := S1x256x2048) hz3, View.ld_unit_zero (S := S1x2048x512) hz3]

/-- The weights block the first step of a batch stores: the same payload, of the slab it has just stored. -/
theorem out_A_4 (c : Dev nD) (i : grid0.Coords) (arg2 : Memref sig .tc .vmem S1x256x512 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x512 .f32) (harg5 : arg5.IsWhole) (arg6 : Memref sig .tc .vmem S1x2048x512 .f32) (harg6 : arg6.IsWhole) (arg7 : Memref sig .tc .vmem S256x2048 .bf16) (harg7 : arg7.IsWhole) (arg8 : Memref sig .tc .vmem S256x2048 .bf16) (harg8 : arg8.IsWhole) (hc0 : cond0_0 i) (x0 : Vec F S1x256x512 .f32) (x1 : Vec F S1x256x2048 .f32) (x2 : Vec F S1x256x2048 .f32) :
    out0_A_4 c i arg2 harg2 arg3 harg3 arg4 harg4 arg5 harg5 arg6 harg6 arg7 harg7 arg8 harg8 hc0 x0 x1 x2 = k0_pay4 (k0_pay1 x1) x0 := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_unit_zero hz3, View.readCov_unit_zero (S := S256x2048) _ hz2]
  simp only [View.readAt_eq_ld, harg2.read_unread, harg3.read_unread, harg4.read_unread, harg7.read_unread, harg8.read_unread, View.ld_unit_zero (S := S256x2048) hz2, View.ld_unit_zero (S := S1x256x512) hz3, View.ld_unit_zero (S := S1x256x2048) hz3, View.ld_unit_zero (S := S1x2048x512) hz3]

/-- The output block the first step of a batch stores. -/
theorem out_A_3 (c : Dev nD) (i : grid0.Coords) (arg2 : Memref sig .tc .vmem S1x256x512 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x512 .f32) (harg5 : arg5.IsWhole) (arg6 : Memref sig .tc .vmem S1x2048x512 .f32) (harg6 : arg6.IsWhole) (arg7 : Memref sig .tc .vmem S256x2048 .bf16) (harg7 : arg7.IsWhole) (arg8 : Memref sig .tc .vmem S256x2048 .bf16) (harg8 : arg8.IsWhole) (hc0 : cond0_0 i) (x0 : Vec F S1x256x512 .f32) (x1 : Vec F S1x256x2048 .f32) (x2 : Vec F S1x256x2048 .f32) :
    out0_A_3 c i arg2 harg2 arg3 harg3 arg4 harg4 arg5 harg5 arg6 harg6 arg7 harg7 arg8 harg8 hc0 x0 x1 x2 = k0_pay5 (k0_pay1 x1) (k0_pay2 x2) x0 := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz3, View.readCov_unit_zero (S := S256x2048) _ hz2, View.readCov_unit_zero (S := S256x2048) _ hz2]
  simp only [View.readAt_eq_ld, harg2.read_unread, harg3.read_unread, harg4.read_unread, harg7.read_unread, harg8.read_unread, View.ld_unit_zero (S := S256x2048) hz2, View.ld_unit_zero (S := S1x256x512) hz3, View.ld_unit_zero (S := S1x256x2048) hz3, View.ld_unit_zero (S := S1x2048x512) hz3]

/-! ## Each grid step, whichever case it is in

Whether a step stores the scratch (the first of its batch) or finds it (a later one), what it stores into the two
output blocks is the same payload of the scratch AS THE STEP LEAVES IT and of the step's query block. -/

variable (m : (ℓ : Loc nD τ sig) → Buf (Elt F) ℓ)

/-- The weights block a step stores: the softmax payload of the key scratch after the step and the query block. -/
theorem out4_step (c : Dev nD) (t : Fin cfg0.N) :
    (outsAt0 m c t.val t.isLt).2.1 = k0_pay4 (outsAt0 m c t.val t.isLt).2.2.1 (iblk m c 0 t) := by
  by_cases h0 : t.val % 4 = 0
  · rw [outsAt0_A m c t h0]; dsimp only; rw [out_A_4, sout_A_0]
  · rw [outsAt0_B m c t h0]; dsimp only; rw [out_B_4]; rfl

/-- The output block a step stores: the value scratch after the step contracted with those weights. -/
theorem out3_step (c : Dev nD) (t : Fin cfg0.N) :
    (outsAt0 m c t.val t.isLt).1
      = k0_pay5 (outsAt0 m c t.val t.isLt).2.2.1 (outsAt0 m c t.val t.isLt).2.2.2 (iblk m c 0 t) := by
  by_cases h0 : t.val % 4 = 0
  · rw [outsAt0_A m c t h0]; dsimp only; rw [out_A_3, sout_A_0, sout_A_1]
  · rw [outsAt0_B m c t h0]; dsimp only; rw [out_B_3]; rfl

/-- The first step of a batch leaves the key block, re-laid, in the first scratch … -/
theorem sc0_first (c : Dev nD) (t : Fin cfg0.N) (h0 : t.val % 4 = 0) :
    (outsAt0 m c t.val t.isLt).2.2.1 = k0_pay1 (iblk m c 1 t) := by
  rw [outsAt0_A m c t h0]; dsimp only; rw [sout_A_0]

/-- … and the value block in the second. -/
theorem sc1_first (c : Dev nD) (t : Fin cfg0.N) (h0 : t.val % 4 = 0) :
    (outsAt0 m c t.val t.isLt).2.2.2 = k0_pay2 (iblk m c 2 t) := by
  rw [outsAt0_A m c t h0]; dsimp only; rw [sout_A_1]

/-- A later step of a batch leaves both scratch buffers as the step before left them. -/
theorem sc_later (c : Dev nD) (t : Fin cfg0.N) (h0 : ¬t.val % 4 = 0) :
    (outsAt0 m c t.val t.isLt).2.2.1 = (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  rw [outsAt0_B m c t h0]; exact ⟨rfl, rfl⟩

end Cert.KernelIdeal.PieceValue

end
-- ==== Proof.BlockRead.lean ====
/-
  Where the pipeline's blocks sit in their arrays.

  The grid has 32 positions `t`, batch-major: position `t` is batch `t / 4`, query tile `t % 4`. The query window and both
  result windows move with both coordinates (block `(t / 4, 0, t % 4)` of extents `[1, ·, 512]`); the key and value
  windows move with the batch alone (block `(t / 4, 0, 0)` of extents `[1, 256, 2048]`: the whole batch). These relations
  between the printed index maps and `t` are decided once over the 32 positions; from them each block is read at an
  index given by coordinates — an element of a block sits at block index × block extent + its coordinate inside the
  block, on every axis —, and the blocks of each result window are seen to cover their array.
-/
import proofs.«149729_j88888643158200_2_alg».proof.Proof.Gen.KernelIdeal.Frame
import Idealize.ShloMosaic.Lib.Pipeline.Value
import Idealize.ShloMosaic.Lib.ValueIdx

noncomputable section

namespace Cert.KernelIdeal.BlockRead

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps at grid position `t`, in closed form (decided over the 32 positions). -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = t.val % 4
    ∧ win0_4.index t (0 : Fin 3) = t.val / 4 ∧ win0_4.index t (1 : Fin 3) = 0 ∧ win0_4.index t (2 : Fin 3) = t.val % 4 :=
  (by decide +kernel : ∀ t : Fin grid0.N, _)

/-- The batch a grid position works on. -/
def bat (t : Fin cfg0.N) : Fin 8 := ⟨t.val / 4, by have h := t.isLt; have hN : cfg0.N = 32 := N_0; omega⟩

/-- The array column that column `j` of a grid position's query tile is. -/
def col (t : Fin cfg0.N) (j : Fin 512) : Fin 2048 := ⟨512 * (t.val % 4) + j.val, by have := j.isLt; omega⟩

/-! ## The input blocks -/

/-- The query block at grid position `t`, read at `(0, r, j)`. -/
theorem qblk_apply (c : Dev nD) (t : Fin cfg0.N) (r : Fin 256) (j : Fin 512) :
    (iblk m c 0 t : Vec F S1x256x512 .f32) (ix3 (0 : Fin 1) r j) = V m c main_arg0 (ix3 (bat t) r (col t j)) := by
  obtain ⟨e0, e1, e2, -⟩ := idx_facts t
  unfold iblk
  rw [View.read_apply]
  show V m c main_arg0 _ = V m c main_arg0 _
  refine congrArg (V m c main_arg0) ?_
  funext a; apply Fin.ext
  match a with
  | ⟨0, _⟩ => show win0_0.index t (0 : Fin 3) * 1 + 1 * 0 = t.val / 4; rw [e0]; omega
  | ⟨1, _⟩ => show win0_0.index t (1 : Fin 3) * 256 + 1 * r.val = r.val; rw [e1]; omega
  | ⟨2, _⟩ => show win0_0.index t (2 : Fin 3) * 512 + 1 * j.val = 512 * (t.val % 4) + j.val; rw [e2]; omega

/-- The key block at grid position `t`, read at `(0, r, n)`. -/
theorem kblk_apply (c : Dev nD) (t : Fin cfg0.N) (r : Fin 256) (n : Fin 2048) :
    (iblk m c 1 t : Vec F S1x256x2048 .f32) (ix3 (0 : Fin 1) r n) = V m c main_arg1 (ix3 (bat t) r n) := by
  obtain ⟨-, -, -, e0, e1, e2, -⟩ := idx_facts t
  unfold iblk
  rw [View.read_apply]
  show V m c main_arg1 _ = V m c main_arg1 _
  refine congrArg (V m c main_arg1) ?_
  funext a; apply Fin.ext
  match a with
  | ⟨0, _⟩ => show win0_1.index t (0 : Fin 3) * 1 + 1 * 0 = t.val / 4; rw [e0]; omega
  | ⟨1, _⟩ => show win0_1.index t (1 : Fin 3) * 256 + 1 * r.val = r.val; rw [e1]; omega
  | ⟨2, _⟩ => show win0_1.index t (2 : Fin 3) * 2048 + 1 * n.val = n.val; rw [e2]; omega

/-- The value block at grid position `t`, read at `(0, r, n)`. -/
theorem vblk_apply (c : Dev nD) (t : Fin cfg0.N) (r : Fin 256) (n : Fin 2048) :
    (iblk m c 2 t : Vec F S1x256x2048 .f32) (ix3 (0 : Fin 1) r n) = V m c main_arg2 (ix3 (bat t) r n) := by
  obtain ⟨-, -, -, -, -, -, e0, e1, e2, -⟩ := idx_facts t
  unfold iblk
  rw [View.read_apply]
  show V m c main_arg2 _ = V m c main_arg2 _
  refine congrArg (V m c main_arg2) ?_
  funext a; apply Fin.ext
  match a with
  | ⟨0, _⟩ => show win0_2.index t (0 : Fin 3) * 1 + 1 * 0 = t.val / 4; rw [e0]; omega
  | ⟨1, _⟩ => show win0_2.index t (1 : Fin 3) * 256 + 1 * r.val = r.val; rw [e1]; omega
  | ⟨2, _⟩ => show win0_2.index t (2 : Fin 3) * 2048 + 1 * n.val = n.val; rw [e2]; omega

/-! ## The result blocks: where they sit, and that they cover their arrays -/

/-- Block `t` of result window 3 holds, at `(u, r, j)`, the array's entry `(t / 4, r, 512 * (t % 4) + j)`. -/
theorem emb3 (t : Fin cfg0.N) (u : Fin 1) (r : Fin 256) (j : Fin 512) :
    ((cfg0.win 3).blk t).view.emb (ix3 u r j) = ix3 (bat t) r (col t j) := by
  obtain ⟨-, -, -, -, -, -, -, -, -, e0, e1, e2, -⟩ := idx_facts t
  have hu : u.val = 0 := by have := u.isLt; omega
  funext a; apply Fin.ext
  match a with
  | ⟨0, _⟩ => show win0_3.index t (0 : Fin 3) * 1 + 1 * u.val = t.val / 4; rw [e0, hu]; omega
  | ⟨1, _⟩ => show win0_3.index t (1 : Fin 3) * 256 + 1 * r.val = r.val; rw [e1]; omega
  | ⟨2, _⟩ => show win0_3.index t (2 : Fin 3) * 512 + 1 * j.val = 512 * (t.val % 4) + j.val; rw [e2]; omega

/-- An index of result array 0 lies in block `t` exactly when each coordinate lies in the block's range on its axis. -/
theorem mem_blk3 (t : Fin cfg0.N) (y : S8x256x2048.Idx) :
    y ∈ ((cfg0.win 3).blk t).view.set ↔ ∀ a : Fin 3, win0_3.index t a * S1x256x512.size a ≤ (y a).val ∧ (y a).val < win0_3.index t a * S1x256x512.size a + S1x256x512.size a := by
  show y ∈ ((View.whole main_v0_0).slice (win0_3.rect t)).set ↔ _
  rw [View.set_slice_whole, Rect.mem_set_unit]
  exact Iff.rfl

/-- Every index of result array 0 lies in the block of the grid position `4 * batch + column / 512`. -/
theorem cover3 (y : S8x256x2048.Idx) :
    ∃ t : Fin cfg0.N, (cfg0.win 3).flush t = true ∧ y ∈ ((cfg0.win 3).blk t).view.set := by
  have h0 : (y 0).val < 8 := (y 0).isLt
  have h1 : (y 1).val < 256 := (y 1).isLt
  have h2 : (y 2).val < 2048 := (y 2).isLt
  have hN : cfg0.N = 32 := N_0
  obtain ⟨t, tv⟩ : ∃ t : Fin cfg0.N, t.val = 4 * (y 0).val + (y 2).val / 512 := ⟨⟨4 * (y 0).val + (y 2).val / 512, by omega⟩, rfl⟩
  obtain ⟨-, -, -, -, -, -, -, -, -, e0, e1, e2, -⟩ := idx_facts t
  refine ⟨t, flush0_3 t, ?_⟩
  rw [mem_blk3]
  intro a
  match a with
  | ⟨0, _⟩ => show win0_3.index t (0 : Fin 3) * 1 ≤ (y 0).val ∧ (y 0).val < win0_3.index t (0 : Fin 3) * 1 + 1; rw [e0, tv]; omega
  | ⟨1, _⟩ => show win0_3.index t (1 : Fin 3) * 256 ≤ (y 1).val ∧ (y 1).val < win0_3.index t (1 : Fin 3) * 256 + 256; rw [e1]; omega
  | ⟨2, _⟩ => show win0_3.index t (2 : Fin 3) * 512 ≤ (y 2).val ∧ (y 2).val < win0_3.index t (2 : Fin 3) * 512 + 512; rw [e2, tv]; omega

/-- Block `t` of result window 4 holds, at `(u, r, j)`, the array's entry `(t / 4, r, 512 * (t % 4) + j)`. -/
theorem emb4 (t : Fin cfg0.N) (u : Fin 1) (r : Fin 2048) (j : Fin 512) :
    ((cfg0.win 4).blk t).view.emb (ix3 u r j) = ix3 (bat t) r (col t j) := by
  obtain ⟨-, -, -, -, -, -, -, -, -, -, -, -, e0, e1, e2⟩ := idx_facts t
  have hu : u.val = 0 := by have := u.isLt; omega
  funext a; apply Fin.ext
  match a with
  | ⟨0, _⟩ => show win0_4.index t (0 : Fin 3) * 1 + 1 * u.val = t.val / 4; rw [e0, hu]; omega
  | ⟨1, _⟩ => show win0_4.index t (1 : Fin 3) * 2048 + 1 * r.val = r.val; rw [e1]; omega
  | ⟨2, _⟩ => show win0_4.index t (2 : Fin 3) * 512 + 1 * j.val = 512 * (t.val % 4) + j.val; rw [e2]; omega

/-- An index of result array 1 lies in block `t` exactly when each coordinate lies in the block's range on its axis. -/
theorem mem_blk4 (t : Fin cfg0.N) (y : S8x2048x2048.Idx) :
    y ∈ ((cfg0.win 4).blk t).view.set ↔ ∀ a : Fin 3, win0_4.index t a * S1x2048x512.size a ≤ (y a).val ∧ (y a).val < win0_4.index t a * S1x2048x512.size a + S1x2048x512.size a := by
  show y ∈ ((View.whole main_v0_1).slice (win0_4.rect t)).set ↔ _
  rw [View.set_slice_whole, Rect.mem_set_unit]
  exact Iff.rfl

/-- Every index of result array 1 lies in the block of the grid position `4 * batch + column / 512`. -/
theorem cover4 (y : S8x2048x2048.Idx) :
    ∃ t : Fin cfg0.N, (cfg0.win 4).flush t = true ∧ y ∈ ((cfg0.win 4).blk t).view.set := by
  have h0 : (y 0).val < 8 := (y 0).isLt
  have h1 : (y 1).val < 2048 := (y 1).isLt
  have h2 : (y 2).val < 2048 := (y 2).isLt
  have hN : cfg0.N = 32 := N_0
  obtain ⟨t, tv⟩ : ∃ t : Fin cfg0.N, t.val = 4 * (y 0).val + (y 2).val / 512 := ⟨⟨4 * (y 0).val + (y 2).val / 512, by omega⟩, rfl⟩
  obtain ⟨-, -, -, -, -, -, -, -, -, -, -, -, e0, e1, e2⟩ := idx_facts t
  refine ⟨t, flush0_4 t, ?_⟩
  rw [mem_blk4]
  intro a
  match a with
  | ⟨0, _⟩ => show win0_4.index t (0 : Fin 3) * 1 ≤ (y 0).val ∧ (y 0).val < win0_4.index t (0 : Fin 3) * 1 + 1; rw [e0, tv]; omega
  | ⟨1, _⟩ => show win0_4.index t (1 : Fin 3) * 2048 ≤ (y 1).val ∧ (y 1).val < win0_4.index t (1 : Fin 3) * 2048 + 2048; rw [e1]; omega
  | ⟨2, _⟩ => show win0_4.index t (2 : Fin 3) * 512 ≤ (y 2).val ∧ (y 2).val < win0_4.index t (2 : Fin 3) * 512 + 512; rw [e2, tv]; omega

end Cert.KernelIdeal.BlockRead

end
-- ==== Proof.PayValue.lean ====
/-
  The kernel body's arithmetic, read at an index on the extended reals.

  One grid step holds the key slab K and the value slab V, both [256, 2048] (channel, key), and the query block Q,
  [1, 256, 512] (unit, channel, query). Its pure values, under the names the generated skeleton gives them:

    k0_pay1 X, k0_pay2 X   the [1, 256, 2048] block X re-laid as [256, 2048] and narrowed: X at (0, c, i)
    k0_pay3 K Q            the softmax block [2048, 512]: at (i, j) it is colSoftmax (blockLogit K Q j) i, where
                           blockLogit K Q j i = ∑ c, K (c, i) * (Q (0, c, j) * scale) is the score of key i for query j
    k0_pay4 K Q            the same block re-laid as [1, 2048, 512]
    k0_pay5 K V Q          [1, 256, 512]: at (u, c, j) it is ∑ i, V (c, i) * colSoftmax (blockLogit K Q j) i

  On the extended reals a narrowing is the identity; a contraction into the zero accumulator is the sum of the products
  over the contracted axis; a maximum-reduction along an axis is the fold of max from the accumulator's value over that
  axis's coordinates, and an add-reduction is the sum over them; a re-laying that adds or drops a leading unit axis, and
  the broadcast of one row over many, only rename the index. Each of these facts is a lemma below, stated over variables
  of the literal vector types at indices written by their coordinates; the five theorems chain them.
-/
import proofs.«149729_j88888643158200_2_alg».proof.Proof.Gen.KernelIdeal.Skeleton
import proofs.«149729_j88888643158200_2_alg».proof.Proof.Spec
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.KernelIdeal.PayValue

open Cert.KernelIdeal Cert.KernelIdeal.Gen Idealize.ShloMosaic Idealize.ShloMosaic.ValueIdx Cert.AttnSpec
open scoped BigOperators

/-! ## The two narrowed slabs -/

/-- The key slab the first grid step keeps: the [1, 256, 2048] block re-laid as [256, 2048] and narrowed. On the extended
    reals the narrowing is the identity and the second re-laying is onto the same shape, so the slab at (c, i) is the
    block at (0, c, i). -/
theorem pay1_apply (X : FVec Ideal S1x256x2048 .f32) (c : Fin 256) (i : Fin 2048) :
    k0_pay1 (F := Ideal) X (ix2 c i) = X (ix3 (0 : Fin 1) c i) := by
  unfold k0_pay1
  refine (congrFun (shapeCast_self _ _) _).trans ?_
  exact shapeCast_1ab_ab_apply X _ c i

/-- The value slab likewise. -/
theorem pay2_apply (X : FVec Ideal S1x256x2048 .f32) (c : Fin 256) (i : Fin 2048) :
    k0_pay2 (F := Ideal) X (ix2 c i) = X (ix3 (0 : Fin 1) c i) := by
  unfold k0_pay2
  refine (congrFun (shapeCast_self _ _) _).trans ?_
  exact shapeCast_1ab_ab_apply X _ c i

/-! ## The two contractions read at an index -/

/-- The first contraction's left operand index at output (i, j): the channel on axis 0 … -/
theorem lhs_chan_0 (y : S2048x512.Idx) (q : dot_S256x2048_S256x512_S2048x512_0_0_1_1_n_n.contr.Idx) :
    (dot_S256x2048_S256x512_S2048x512_0_0_1_1_n_n.lhsIdx y q 0).val = (q ⟨0, by decide⟩).val :=
  dot_S256x2048_S256x512_S2048x512_0_0_1_1_n_n.lhsIdx_val_of_single rfl y q
/-- … and the output's row (the key) on axis 1. -/
theorem lhs_chan_1 (y : S2048x512.Idx) (q : dot_S256x2048_S256x512_S2048x512_0_0_1_1_n_n.contr.Idx) :
    (dot_S256x2048_S256x512_S2048x512_0_0_1_1_n_n.lhsIdx y q 1).val = (y 0).val := by
  unfold DotDims.lhsIdx
  rw [dif_neg (show ¬(1 : Fin S256x2048.rank) ∈ dot_S256x2048_S256x512_S2048x512_0_0_1_1_n_n.lhsBatch by decide),
    dif_pos (show (1 : Fin S256x2048.rank) ∈ dot_S256x2048_S256x512_S2048x512_0_0_1_1_n_n.lhsNonContracting by decide)]
  rfl
/-- Its right operand index: the channel on axis 0 … -/
theorem rhs_chan_0 (y : S2048x512.Idx) (q : dot_S256x2048_S256x512_S2048x512_0_0_1_1_n_n.contr.Idx) :
    (dot_S256x2048_S256x512_S2048x512_0_0_1_1_n_n.rhsIdx y q 0).val = (q ⟨0, by decide⟩).val :=
  dot_S256x2048_S256x512_S2048x512_0_0_1_1_n_n.rhsIdx_val_of_single rfl y q
/-- … and the output's column (the query) on axis 1. -/
theorem rhs_chan_1 (y : S2048x512.Idx) (q : dot_S256x2048_S256x512_S2048x512_0_0_1_1_n_n.contr.Idx) :
    (dot_S256x2048_S256x512_S2048x512_0_0_1_1_n_n.rhsIdx y q 1).val = (y 1).val := by
  unfold DotDims.rhsIdx
  rw [dif_neg (show ¬(1 : Fin S256x512.rank) ∈ dot_S256x2048_S256x512_S2048x512_0_0_1_1_n_n.rhsBatch by decide),
    dif_pos (show (1 : Fin S256x512.rank) ∈ dot_S256x2048_S256x512_S2048x512_0_0_1_1_n_n.rhsNonContracting by decide)]
  rfl

/-- The first contraction, over the channels: the [256, 2048] slab against a [256, 512] block, axis 0 of both
    contracted into the zero accumulator, read at (i, j): the sum over the channel c of the products. The
    contraction index has one axis of extent 256, so the sum is re-indexed by that axis's coordinate; the slab is then
    read at (c, i) and the block at (c, j). -/
theorem matmul_chan_apply (K : FVec Ideal S256x2048 .bf16) (R : FVec Ideal S256x512 .bf16) (i : Fin 2048) (j : Fin 512) :
    matmul (F := Ideal) dot_S256x2048_S256x512_S2048x512_0_0_1_1_n_n none K R
        (constant (F := Ideal) S2048x512 .f32 0x00000000#32) (ix2 i j)
      = ∑ c : Fin 256, K (ix2 c i) * R (ix2 c j) := by
  simp only [matmul]
  rw [Ideal.matmul_constant_zero_apply,
    ← Equiv.sum_comp (contrEquiv1 dot_S256x2048_S256x512_S2048x512_0_0_1_1_n_n 256 rfl rfl).symm]
  refine Finset.sum_congr rfl fun c _ => ?_
  have hk := contrEquiv1_symm_val dot_S256x2048_S256x512_S2048x512_0_0_1_1_n_n 256 rfl rfl c
  have el : dot_S256x2048_S256x512_S2048x512_0_0_1_1_n_n.lhsIdx (ix2 i j)
      ((contrEquiv1 dot_S256x2048_S256x512_S2048x512_0_0_1_1_n_n 256 rfl rfl).symm c) = ix2 c i :=
    funext fun a => Fin.ext (by
      match a with
      | ⟨0, _⟩ => exact (lhs_chan_0 _ _).trans hk
      | ⟨1, _⟩ => exact lhs_chan_1 _ _)
  have er : dot_S256x2048_S256x512_S2048x512_0_0_1_1_n_n.rhsIdx (ix2 i j)
      ((contrEquiv1 dot_S256x2048_S256x512_S2048x512_0_0_1_1_n_n 256 rfl rfl).symm c) = ix2 c j :=
    funext fun a => Fin.ext (by
      match a with
      | ⟨0, _⟩ => exact (rhs_chan_0 _ _).trans hk
      | ⟨1, _⟩ => exact rhs_chan_1 _ _)
  rw [el, er]

/-- The second contraction's left operand index at output (c, j): the output's row (the channel) on axis 0 … -/
theorem lhs_key_0 (y : S256x512.Idx) (q : dot_S256x2048_S2048x512_S256x512_1_0_0_1_n_n.contr.Idx) :
    (dot_S256x2048_S2048x512_S256x512_1_0_0_1_n_n.lhsIdx y q 0).val = (y 0).val := by
  unfold DotDims.lhsIdx
  rw [dif_neg (show ¬(0 : Fin S256x2048.rank) ∈ dot_S256x2048_S2048x512_S256x512_1_0_0_1_n_n.lhsBatch by decide),
    dif_pos (show (0 : Fin S256x2048.rank) ∈ dot_S256x2048_S2048x512_S256x512_1_0_0_1_n_n.lhsNonContracting by decide)]
  rfl
/-- … and the key on axis 1. -/
theorem lhs_key_1 (y : S256x512.Idx) (q : dot_S256x2048_S2048x512_S256x512_1_0_0_1_n_n.contr.Idx) :
    (dot_S256x2048_S2048x512_S256x512_1_0_0_1_n_n.lhsIdx y q 1).val = (q ⟨0, by decide⟩).val :=
  dot_S256x2048_S2048x512_S256x512_1_0_0_1_n_n.lhsIdx_val_of_single rfl y q
/-- Its right operand index: the key on axis 0 … -/
theorem rhs_key_0 (y : S256x512.Idx) (q : dot_S256x2048_S2048x512_S256x512_1_0_0_1_n_n.contr.Idx) :
    (dot_S256x2048_S2048x512_S256x512_1_0_0_1_n_n.rhsIdx y q 0).val = (q ⟨0, by decide⟩).val :=
  dot_S256x2048_S2048x512_S256x512_1_0_0_1_n_n.rhsIdx_val_of_single rfl y q
/-- … and the output's column (the query) on axis 1. -/
theorem rhs_key_1 (y : S256x512.Idx) (q : dot_S256x2048_S2048x512_S256x512_1_0_0_1_n_n.contr.Idx) :
    (dot_S256x2048_S2048x512_S256x512_1_0_0_1_n_n.rhsIdx y q 1).val = (y 1).val := by
  unfold DotDims.rhsIdx
  rw [dif_neg (show ¬(1 : Fin S2048x512.rank) ∈ dot_S256x2048_S2048x512_S256x512_1_0_0_1_n_n.rhsBatch by decide),
    dif_pos (show (1 : Fin S2048x512.rank) ∈ dot_S256x2048_S2048x512_S256x512_1_0_0_1_n_n.rhsNonContracting by decide)]
  rfl

/-- The second contraction, over the keys: the [256, 2048] slab (axis 1) against a [2048, 512] block (axis 0) into the
    zero accumulator, read at (c, j): the sum over the key i of the slab at (c, i) times the block at (i, j). -/
theorem matmul_key_apply (V : FVec Ideal S256x2048 .bf16) (P : FVec Ideal S2048x512 .bf16) (c : Fin 256) (j : Fin 512) :
    matmul (F := Ideal) dot_S256x2048_S2048x512_S256x512_1_0_0_1_n_n none V P
        (constant (F := Ideal) S256x512 .f32 0x00000000#32) (ix2 c j)
      = ∑ i : Fin 2048, V (ix2 c i) * P (ix2 i j) := by
  simp only [matmul]
  rw [Ideal.matmul_constant_zero_apply,
    ← Equiv.sum_comp (contrEquiv1 dot_S256x2048_S2048x512_S256x512_1_0_0_1_n_n 2048 rfl rfl).symm]
  refine Finset.sum_congr rfl fun i _ => ?_
  have hk := contrEquiv1_symm_val dot_S256x2048_S2048x512_S256x512_1_0_0_1_n_n 2048 rfl rfl i
  have el : dot_S256x2048_S2048x512_S256x512_1_0_0_1_n_n.lhsIdx (ix2 c j)
      ((contrEquiv1 dot_S256x2048_S2048x512_S256x512_1_0_0_1_n_n 2048 rfl rfl).symm i) = ix2 c i :=
    funext fun a => Fin.ext (by
      match a with
      | ⟨0, _⟩ => exact lhs_key_0 _ _
      | ⟨1, _⟩ => exact (lhs_key_1 _ _).trans hk)
  have er : dot_S256x2048_S2048x512_S256x512_1_0_0_1_n_n.rhsIdx (ix2 c j)
      ((contrEquiv1 dot_S256x2048_S2048x512_S256x512_1_0_0_1_n_n 2048 rfl rfl).symm i) = ix2 i j :=
    funext fun a => Fin.ext (by
      match a with
      | ⟨0, _⟩ => exact (rhs_key_0 _ _).trans hk
      | ⟨1, _⟩ => exact rhs_key_1 _ _)
  rw [el, er]

/-! ## The two column reductions and the re-laid broadcast, read at an index -/

/-- Over the reduced index j of a reduction along axis 0, the source index with the key i inserted is (i, j). -/
theorem lift_key (h : S2048x512.Reduces [0] S512) (j : Fin 512) (i : Fin 2048) : h.lift (ix1 j) i = ix2 i j :=
  funext fun a => Fin.ext (by
    match a with
    | ⟨0, _⟩ => rfl
    | ⟨1, _⟩ => rfl)

/-- The column maximum: the maximum-reduction of a [2048, 512] block along axis 0 from the pattern of -∞, read at the
    column j, is the fold of max from -∞ over the keys of that column. -/
theorem colmax_apply (S : FVec Ideal S2048x512 .f32) (h : S2048x512.Reduces [0] S512) (hφ : FKind.Formats .f32)
    (hacc : (0xFF800000#32 : BitVec 32) = 0xFF800000#32) (j : Fin 512) :
    multiReduction (F := Ideal) .maximumf [0] S512 S 0xFF800000#32 h hφ hacc (ix1 j)
      = colMax fun i : Fin 2048 => S (ix2 i j) := by
  refine (Ideal.multiReduction_maximumf_single S _ h hφ hacc (ix1 j)).trans ?_
  have e : (S ∘ h.lift (ix1 j)) = fun i : Fin 2048 => S (ix2 i j) := funext fun i => congrArg S (lift_key h j i)
  exact congrArg (fun f : Fin 2048 → EReal => (Finset.univ : Finset (Fin 2048)).fold max negInf f) e

/-- The column sum: the add-reduction of a [2048, 512] block along axis 0 from the zero pattern, read at the column j,
    is the sum over the keys of that column. -/
theorem colsum_apply (E : FVec Ideal S2048x512 .f32) (h : S2048x512.Reduces [0] S512) (hφ : FKind.Formats .f32)
    (hacc : (0x00000000#32 : BitVec 32) = 0x00000000#32) (j : Fin 512) :
    multiReduction (F := Ideal) .add [0] S512 E 0x00000000#32 h hφ hacc (ix1 j) = ∑ i : Fin 2048, E (ix2 i j) := by
  refine (Ideal.multiReduction_add_single E _ h hφ hacc (ix1 j)).trans ?_
  exact Finset.sum_congr rfl fun i _ => congrArg E (lift_key h j i)

/-- A [512] row re-laid as [1, 512] and broadcast over the 2048 keys reads, at (i, j), the row at j. -/
theorem relay_apply (r : FVec Ideal S512 .f32) (hc : S512.ShapeCasts S1x512) (hb : S1x512.Broadcasts S2048x512)
    (i : Fin 2048) (j : Fin 512) :
    broadcastTo S2048x512 (shapeCast S1x512 r hc) hb (ix2 i j) = r (ix1 j) :=
  (broadcastTo_1b_ab_apply _ hb i j).trans (shapeCast_a_1a_apply r hc 0 j)

/-! ## The body's softmax, read at an index -/

/-- The scores: the key slab contracted over the channels with the query block re-laid as [256, 512], multiplied by
    the splat of the scale and narrowed (the narrowing is the identity on extended reals), read at (i, j): the column
    blockLogit K Q j at the key i. -/
theorem scores_apply (K : FVec Ideal S256x2048 .bf16) (Q : FVec Ideal S1x256x512 .f32)
    (hq : S1x256x512.ShapeCasts S256x512) (hn : FTy.bits .bf16 < FTy.bits .f32) (i : Fin 2048) (j : Fin 512) :
    matmul (F := Ideal) dot_S256x2048_S256x512_S2048x512_0_0_1_1_n_n none K
        (truncf .bf16 (mulf (shapeCast S256x512 Q hq) (broadcast S256x512 (Scalar.ofBits (F := Ideal) .f32 0x3D800000#32))) hn)
        (constant (F := Ideal) S2048x512 .f32 0x00000000#32) (ix2 i j)
      = blockLogit K Q j i := by
  refine (matmul_chan_apply K _ i j).trans ?_
  unfold blockLogit
  refine Finset.sum_congr rfl fun c _ => ?_
  exact congrArg (fun x : EReal => K (ix2 c i) * (x * scale)) (shapeCast_1ab_ab_apply Q hq c j)

/-- The shifted exponentials of a score block S: the block minus its column maxima (re-laid and broadcast over the keys),
    exponentiated, read at (i, j): the shifted exponential of the column j of S at the key i. -/
theorem expblock_apply (S : FVec Ideal S2048x512 .f32) (h : S2048x512.Reduces [0] S512) (hφ : FKind.Formats .f32)
    (hmax : (0xFF800000#32 : BitVec 32) = 0xFF800000#32) (hc : S512.ShapeCasts S1x512) (hb : S1x512.Broadcasts S2048x512)
    (i : Fin 2048) (j : Fin 512) :
    exp (subf S (broadcastTo S2048x512 (shapeCast S1x512
        (multiReduction (F := Ideal) .maximumf [0] S512 S 0xFF800000#32 h hφ hmax) hc) hb)) (ix2 i j)
      = colExp (fun i' : Fin 2048 => S (ix2 i' j)) i :=
  congrArg (fun m : EReal => Ideal.exp (S (ix2 i j) - m)) ((relay_apply _ hc hb i j).trans (colmax_apply S h hφ hmax j))

/-- The division by the column sums: a block E whose column j is the shifted exponentials of a column L, divided by its
    column sums (re-laid and broadcast over the keys), read at (i, j): the softmax of L at the key i. -/
theorem div_colsum_apply (E : FVec Ideal S2048x512 .f32) (L : Fin 2048 → EReal) (h : S2048x512.Reduces [0] S512)
    (hφ : FKind.Formats .f32) (hadd : (0x00000000#32 : BitVec 32) = 0x00000000#32) (hc : S512.ShapeCasts S1x512)
    (hb : S1x512.Broadcasts S2048x512) (i : Fin 2048) (j : Fin 512) (hE : ∀ i' : Fin 2048, E (ix2 i' j) = colExp L i') :
    divf E (broadcastTo S2048x512 (shapeCast S1x512
        (multiReduction (F := Ideal) .add [0] S512 E 0x00000000#32 h hφ hadd) hc) hb) (ix2 i j)
      = colSoftmax L i := by
  have hs : broadcastTo S2048x512 (shapeCast S1x512
      (multiReduction (F := Ideal) .add [0] S512 E 0x00000000#32 h hφ hadd) hc) hb (ix2 i j)
        = ∑ i' : Fin 2048, colExp L i' :=
    ((relay_apply _ hc hb i j).trans (colsum_apply E h hφ hadd j)).trans (Finset.sum_congr rfl fun i' _ => hE i')
  exact congrArg₂ Ideal.div (hE i) hs

theorem pay3_apply (K : FVec Ideal S256x2048 .bf16) (Q : FVec Ideal S1x256x512 .f32) (i : Fin 2048) (j : Fin 512) :
    k0_pay3 (F := Ideal) K Q (ix2 i j) = colSoftmax (blockLogit K Q j) i := by
  unfold k0_pay3
  refine div_colsum_apply _ (blockLogit K Q j) _ _ _ _ _ i j fun i' => ?_
  refine (expblock_apply _ _ _ _ _ _ i' j).trans ?_
  exact congrArg (fun L : Fin 2048 → EReal => colExp L i') (funext fun i'' => scores_apply K Q _ _ i'' j)

/-- The weights block the step stores: the softmax re-laid as [1, 2048, 512], whatever the unit coordinate. -/
theorem pay4_apply (K : FVec Ideal S256x2048 .bf16) (Q : FVec Ideal S1x256x512 .f32) (u : Fin 1) (i : Fin 2048) (j : Fin 512) :
    k0_pay4 (F := Ideal) K Q (ix3 u i j) = colSoftmax (blockLogit K Q j) i := by
  unfold k0_pay4
  exact (shapeCast_ab_1ab_apply _ _ u i j).trans (pay3_apply K Q i j)

/-- The output block the step stores: the value slab contracted over the keys with the softmax (narrowed: the identity on
    extended reals), re-laid as [1, 256, 512]: at (u, c, j) the sum over the key i of the value at (c, i) times the
    weight of the key i for the query j. -/
theorem pay5_apply (K V : FVec Ideal S256x2048 .bf16) (Q : FVec Ideal S1x256x512 .f32) (u : Fin 1) (c : Fin 256) (j : Fin 512) :
    k0_pay5 (F := Ideal) K V Q (ix3 u c j) = ∑ i : Fin 2048, V (ix2 c i) * colSoftmax (blockLogit K Q j) i := by
  unfold k0_pay5
  refine (shapeCast_ab_1ab_apply _ _ u c j).trans ?_
  refine (matmul_key_apply V _ c j).trans ?_
  exact Finset.sum_congr rfl fun i _ => congrArg (fun x : EReal => V (ix2 c i) * x) (pay3_apply K Q i j)

end Cert.KernelIdeal.PayValue

end
-- ==== Proof.KernelValue.lean ====
/-
  What the kernel's two result arrays hold after the run, at the extended reals: the specification's `outp` and
  `weights` of the three argument arrays.

  The key and value scratch are carried across the four grid positions of a batch: the first position of a batch
  stores the batch's key and value slabs there and every position of the batch finds them (by induction on the grid
  position: a later position leaves the scratch as it found it, and stays in the same batch). So at grid position `t`
  — batch `t / 4`, query tile `t % 4` — the body's softmax payload is computed from the key slab of batch `t / 4` and
  the block of 512 query columns starting at `512 * (t % 4)`. Its score column, with the scale inside the contraction, is
  the specification's (the scale moves out of the sum), so the weights block is the matching block of `weights` and the
  output block that of `outp`; the 32 blocks of each result window cover their array.
-/
import proofs.«149729_j88888643158200_2_alg».proof.Proof.Gen.KernelIdeal.Value
import proofs.«149729_j88888643158200_2_alg».proof.Proof.Spec
import proofs.«149729_j88888643158200_2_alg».proof.Proof.PieceValue
import proofs.«149729_j88888643158200_2_alg».proof.Proof.BlockRead
import proofs.«149729_j88888643158200_2_alg».proof.Proof.PayValue

noncomputable section

namespace Cert.KernelIdeal.AttnValue

open Cert.KernelIdeal Cert.KernelIdeal.Gen Cert.KernelIdeal.BlockRead Cert.KernelIdeal.PieceValue Cert.KernelIdeal.PayValue
open Cert.AttnSpec Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A step's score column is the specification's: when the key slab `K` is batch `b` of `k` and column `j` of the query
    block `Q` is column `J` of batch `b` of `q`, scaling the queries before the contraction changes nothing. -/
theorem blockLogit_eq (q k : Arg) (b : Fin 8) (K : (⟨2, ![256, 2048]⟩ : Shape).Idx → EReal)
    (Q : (⟨3, ![1, 256, 512]⟩ : Shape).Idx → EReal) (j : Fin 512) (J : Fin 2048)
    (hK : ∀ r n, K (ix2 r n) = k (ix3 b r n)) (hQ : ∀ r, Q (ix3 (0 : Fin 1) r j) = q (ix3 b r J)) :
    blockLogit K Q j = logit q k b J := by
  funext i
  rw [← logit_eq_prescaled]
  unfold blockLogit
  exact Finset.sum_congr rfl fun r _ => by rw [hK, hQ]

/-- THE CARRIED SCRATCH: after grid position `n` the two scratch buffers hold the key and value slabs of batch `n / 4`. -/
theorem scratch_apply (c : Dev nD) : ∀ (n : ℕ) (hn : n < cfg0.N) (r : Fin 256) (i : Fin 2048),
    (outsAt0 m c n hn).2.2.1 (ix2 r i) = V m c main_arg1 (ix3 (bat ⟨n, hn⟩) r i)
    ∧ (outsAt0 m c n hn).2.2.2 (ix2 r i) = V m c main_arg2 (ix3 (bat ⟨n, hn⟩) r i) := by
  have first : ∀ (t : Fin cfg0.N), t.val % 4 = 0 → ∀ (r : Fin 256) (i : Fin 2048),
      (outsAt0 m c t.val t.isLt).2.2.1 (ix2 r i) = V m c main_arg1 (ix3 (bat t) r i)
      ∧ (outsAt0 m c t.val t.isLt).2.2.2 (ix2 r i) = V m c main_arg2 (ix3 (bat t) r i) := fun t h0 r i => by
    rw [sc0_first m c t h0, sc1_first m c t h0]
    exact ⟨(pay1_apply (iblk m c 1 t) r i).trans (kblk_apply m c t r i),
      (pay2_apply (iblk m c 2 t) r i).trans (vblk_apply m c t r i)⟩
  intro n
  induction n with
  | zero => intro hn r i; exact first ⟨0, hn⟩ rfl r i
  | succ n ih =>
    intro hn r i
    by_cases h0 : (n + 1) % 4 = 0
    · exact first ⟨n + 1, hn⟩ h0 r i
    · obtain ⟨e0, e1⟩ := sc_later m c ⟨n + 1, hn⟩ h0
      have hb : bat ⟨n + 1, hn⟩ = bat ⟨n, Nat.lt_of_succ_lt hn⟩ := Fin.ext (by show (n + 1) / 4 = n / 4; omega)
      rw [e0, e1, hb]
      exact ih (Nat.lt_of_succ_lt hn) r i

/-- THE WEIGHTS BLOCK of grid position `t`, at `(u, i, j)`: the specification's weights at `(t / 4, i, 512 * (t % 4) + j)`. -/
theorem out4_apply (c : Dev nD) (t : Fin cfg0.N) (u : Fin 1) (i : Fin 2048) (j : Fin 512) :
    (outsAt0 m c t.val t.isLt).2.1 (ix3 u i j)
      = weights (V m c main_arg0) (V m c main_arg1) (ix3 (bat t) i (col t j)) := by
  rw [out4_step m c t]
  refine (pay4_apply _ _ u i j).trans ?_
  show colSoftmax (blockLogit _ _ j) i = colSoftmax (logit _ _ (bat t) (col t j)) i
  rw [blockLogit_eq (V m c main_arg0) (V m c main_arg1) (bat t) _ _ j (col t j)
    (fun r n => (scratch_apply m c t.val t.isLt r n).1) (fun r => qblk_apply m c t r j)]

/-- THE OUTPUT BLOCK of grid position `t`, at `(u, r, j)`: the specification's output at `(t / 4, r, 512 * (t % 4) + j)`. -/
theorem out3_apply (c : Dev nD) (t : Fin cfg0.N) (u : Fin 1) (r : Fin 256) (j : Fin 512) :
    (outsAt0 m c t.val t.isLt).1 (ix3 u r j)
      = outp (V m c main_arg0) (V m c main_arg1) (V m c main_arg2) (ix3 (bat t) r (col t j)) := by
  rw [out3_step m c t]
  refine (pay5_apply _ _ _ u r j).trans ?_
  rw [blockLogit_eq (V m c main_arg0) (V m c main_arg1) (bat t) _ _ j (col t j)
    (fun r n => (scratch_apply m c t.val t.isLt r n).1) (fun r => qblk_apply m c t r j)]
  refine Finset.sum_congr rfl fun i _ => ?_
  rw [(scratch_apply m c t.val t.isLt r i).2]
  rfl

/-- What grid position `t` writes back to the weights array is block `t` of the specification's weights. -/
theorem flushed4_eq (c : Dev nD) (t : Fin cfg0.N) :
    (dats m 0 c).flushed 4 t
      = ((cfg0.win 4).blk t).view.read (Elt Ideal) (weights (V m c main_arg0) (V m c main_arg1)) := by
  rw [Value.flushed4]
  funext y
  obtain ⟨u, i, j, rfl⟩ : ∃ (u : Fin 1) (i : Fin 2048) (j : Fin 512), y = ix3 u i j := ⟨y 0, y 1, y 2, eq_ix3 y⟩
  show (outsAt0 m c t.val t.isLt).2.1 (ix3 u i j) = weights _ _ (((cfg0.win 4).blk t).view.emb (ix3 u i j))
  rw [emb4 t u i j]
  exact out4_apply m c t u i j

/-- What grid position `t` writes back to the output array is block `t` of the specification's output. -/
theorem flushed3_eq (c : Dev nD) (t : Fin cfg0.N) :
    (dats m 0 c).flushed 3 t
      = ((cfg0.win 3).blk t).view.read (Elt Ideal) (outp (V m c main_arg0) (V m c main_arg1) (V m c main_arg2)) := by
  rw [Value.flushed3]
  funext y
  obtain ⟨u, r, j, rfl⟩ : ∃ (u : Fin 1) (r : Fin 256) (j : Fin 512), y = ix3 u r j := ⟨y 0, y 1, y 2, eq_ix3 y⟩
  show (outsAt0 m c t.val t.isLt).1 (ix3 u r j) = outp _ _ _ (((cfg0.win 3).blk t).view.emb (ix3 u r j))
  rw [emb3 t u r j]
  exact out3_apply m c t u r j

/-- The weights array after the run: its 32 blocks cover it. -/
theorem final4 (c : Dev nD) : (dats m 0 c).arrAt 4 cfg0.N = weights (V m c main_arg0) (V m c main_arg1) :=
  (dats m 0 c).arrAt_eq_of_cover 4 _ (fun t _ => flushed4_eq m c t) cover4

/-- The output array after the run. -/
theorem final3 (c : Dev nD) :
    (dats m 0 c).arrAt 3 cfg0.N = outp (V m c main_arg0) (V m c main_arg1) (V m c main_arg2) :=
  (dats m 0 c).arrAt_eq_of_cover 3 _ (fun t _ => flushed3_eq m c t) cover3

/-- THE RUN, READ: every weakly fair execution ends with the two result arrays at the specification's functions of
    the argument arrays as launched, and the arguments unchanged. -/
theorem run : θ_run defs (onTc (τ := τ) (main (F := Ideal))) ⟨m, fun _ => 0, ρ⟩ fun r => ∀ c : Dev nD,
      r.2.mem ((c : Thread nD τ).loc main_v0_0)
        = outp (m ((c : Thread nD τ).loc main_arg0)) (m ((c : Thread nD τ).loc main_arg1)) (m ((c : Thread nD τ).loc main_arg2))
      ∧ r.2.mem ((c : Thread nD τ).loc main_v0_1)
        = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.AttnValue

end
-- ==== Proof.RefSpec.lean ====
/-
  The reference program computes the specification.

  Read one operation at a time on the extended reals, the reference forms, for the three argument arrays
  `q k v : [8, 256, 2048]`:

    s[b, i, j]  = (∑ c, k[b, c, i] * q[b, c, j]) * (1/16)                 the scaled score of key `i` for query `j`
    m[b, j]     = max (-∞) (the fold of max over i from -∞ of s[b, i, j])  the column maximum
    e[b, i, j]  = exp (s[b, i, j] - m[b, j])
    z[b, j]     = 0 + ∑ i, e[b, i, j]
    w[b, i, j]  = e[b, i, j] / z[b, j]
    o[b, c, j]  = ∑ i, v[b, c, i] * w[b, i, j]

  Each line is the specification's line of the same name once the column `i ↦ s[b, i, j]` is recognised as the
  specification's score column of query `j`: the outer maximum with `-∞` changes nothing because the fold already
  starts from `-∞`, and the initial `0` of the sum is the additive unit. The lemmas below follow the lines in order, each at
  an index given by its coordinates.
-/
import proofs.«149729_j88888643158200_2_alg».proof.Proof.Gen.ReferenceIdeal.Read
import proofs.«149729_j88888643158200_2_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Read Idealize.ShloMosaic Idealize.ShloMosaic.ValueIdx
open scoped BigOperators

/-- An argument array of the reference: a function of the index `[8, 256, 2048]` into the extended reals. -/
abbrev Arr : Type := (⟨S8x256x2048, .f32⟩ : BufTy).Contents (Elt Ideal)

/-- The scores: entry `(b, i, j)` contracts key `i` with query `j` over the channels and scales the result. -/
theorem scores_apply (q k : Arr) (b : Fin 8) (i j : Fin 2048) :
    val_main_v2 (F := Ideal) q k (ix3 b i j) = Cert.AttnSpec.logit q k b j i := by
  rw [val_main_v2_apply, val_main_v0_apply, val_main_v1_apply, val_main_cst_apply]
  show (∑ c : Fin 256, k (lidx_main_v0 (ix3 b i j) c) * q (ridx_main_v0 (ix3 b i j) c)) * Cert.AttnSpec.scale
      = (∑ c : Fin 256, k (ix3 b c i) * q (ix3 b c j)) * Cert.AttnSpec.scale
  refine congrArg (· * Cert.AttnSpec.scale) (Finset.sum_congr rfl fun c _ => ?_)
  have el : lidx_main_v0 (ix3 b i j) c = ix3 b c i :=
    funext fun a => Fin.ext (by match a with | ⟨0, _⟩ => rfl | ⟨1, _⟩ => rfl | ⟨2, _⟩ => rfl)
  have er : ridx_main_v0 (ix3 b i j) c = ix3 b c j :=
    funext fun a => Fin.ext (by match a with | ⟨0, _⟩ => rfl | ⟨1, _⟩ => rfl | ⟨2, _⟩ => rfl)
  exact congrArg₂ (· * ·) (congrArg k el) (congrArg q er)

/-- The index over `(b, j)` with coordinate `i` put back on the reduced axis (axis 1) is `(b, i, j)`. -/
theorem lift_ix2 (hR : S8x2048x2048.Reduces [1] S8x2048) (b : Fin 8) (j : Fin 2048) (i : Fin 2048) :
    hR.lift (ix2 b j) i = ix3 b i j :=
  funext fun a => Fin.ext (by
    show hR.liftVal (ix2 b j) i.val a = (ix3 b i j a).val
    unfold Shape.Reduces.liftVal
    match a with
    | ⟨0, _⟩ => rfl
    | ⟨1, _⟩ => rfl
    | ⟨2, _⟩ => rfl)

/-- The maximum over the keys (axis 1) of the scores, at `(b, j)`: the fold of `max` from `-∞` over the score column of
    query `j`. -/
theorem reduceMax_apply (q k : Arr) (b : Fin 8) (j : Fin 2048) :
    val_main_v3 (F := Ideal) q k (ix2 b j) = Cert.AttnSpec.colMax (Cert.AttnSpec.logit q k b j) := by
  have hR : S8x2048x2048.Reduces [1] S8x2048 := by decide
  unfold val_main_v3
  refine (Host.reduce_eq_fold_single (FloatOps.maximumf (F := Ideal) (φ := .f32)) (val_main_v2 (F := Ideal) q k)
    (val_main_cst_0 (F := Ideal)) Cert.ReferenceIdeal.Gen.reducesTo_S8x2048x2048_S8x2048_d1 hR Cert.ReferenceIdeal.Gen.h_S_ (ix2 b j)).trans ?_
  show (Finset.univ : Finset (Fin 2048)).fold max Cert.AttnSpec.negInf
      (fun i : Fin 2048 => val_main_v2 (F := Ideal) q k (hR.lift (ix2 b j) i)) = _
  unfold Cert.AttnSpec.colMax
  refine Finset.fold_congr fun i _ => ?_
  rw [lift_ix2 hR b j i]
  exact scores_apply q k b i j

/-- The column maximum as the reference keeps it: the outer maximum with `-∞` leaves the fold, which starts from `-∞`,
    unchanged. -/
theorem colMax_apply (q k : Arr) (b : Fin 8) (j : Fin 2048) :
    val_main_v5 (F := Ideal) q k (ix2 b j) = Cert.AttnSpec.colMax (Cert.AttnSpec.logit q k b j) := by
  rw [val_main_v5_apply, val_main_v4_apply, val_main_cst_1_apply, reduceMax_apply]
  exact Cert.AttnSpec.max_negInf_colMax _

/-- The column maximum spread back over the keys: entry `(b, i, j)` is the maximum of query `j`'s column. -/
theorem colMaxBcast_apply (q k : Arr) (b : Fin 8) (i j : Fin 2048) :
    val_main_v7 (F := Ideal) q k (ix3 b i j) = Cert.AttnSpec.colMax (Cert.AttnSpec.logit q k b j) := by
  rw [val_main_v7_apply, val_main_v6_apply]
  have e : idx_main_v6 (idx_main_v7 (ix3 b i j)) = ix2 b j :=
    funext fun a => Fin.ext (by match a with | ⟨0, _⟩ => rfl | ⟨1, _⟩ => rfl)
  exact (congrArg (val_main_v5 (F := Ideal) q k) e).trans (colMax_apply q k b j)

/-- The shifted exponentials: entry `(b, i, j)` is the exponential of score `i` of query `j`'s column less the column's maximum. -/
theorem colExp_apply (q k : Arr) (b : Fin 8) (i j : Fin 2048) :
    val_main_v9 (F := Ideal) q k (ix3 b i j) = Cert.AttnSpec.colExp (Cert.AttnSpec.logit q k b j) i := by
  rw [val_main_v9_apply, val_main_v8_apply, scores_apply, colMaxBcast_apply]
  rfl

/-- Their sum over the keys (axis 1) at `(b, j)`: the initial `0` is the additive unit, and the term of key `i` is read at
    `(b, i, j)`. -/
theorem colSum_apply (q k : Arr) (b : Fin 8) (j : Fin 2048) :
    val_main_v10 (F := Ideal) q k (ix2 b j) = ∑ i : Fin 2048, Cert.AttnSpec.colExp (Cert.AttnSpec.logit q k b j) i := by
  rw [val_main_v10_apply, val_main_cst_2_apply]
  refine (congrArg (· + _) Ideal.ofBits_zero_f32).trans ?_
  refine (zero_add _).trans (Finset.sum_congr rfl fun i _ => ?_)
  have e : idx_main_v10 (ix2 b j) i = ix3 b i j :=
    funext fun a => Fin.ext (by match a with | ⟨0, _⟩ => rfl | ⟨1, _⟩ => rfl | ⟨2, _⟩ => rfl)
  exact (congrArg (val_main_v9 (F := Ideal) q k) e).trans (colExp_apply q k b i j)

/-- The sum spread back over the keys. -/
theorem colSumBcast_apply (q k : Arr) (b : Fin 8) (i j : Fin 2048) :
    val_main_v12 (F := Ideal) q k (ix3 b i j) = ∑ i' : Fin 2048, Cert.AttnSpec.colExp (Cert.AttnSpec.logit q k b j) i' := by
  rw [val_main_v12_apply, val_main_v11_apply]
  have e : idx_main_v11 (idx_main_v12 (ix3 b i j)) = ix2 b j :=
    funext fun a => Fin.ext (by match a with | ⟨0, _⟩ => rfl | ⟨1, _⟩ => rfl)
  exact (congrArg (val_main_v10 (F := Ideal) q k) e).trans (colSum_apply q k b j)

/-- The quotient: entry `(b, i, j)` is the softmax of query `j`'s score column at key `i`. -/
theorem softmax_apply (q k : Arr) (b : Fin 8) (i j : Fin 2048) :
    val_main_v13 (F := Ideal) q k (ix3 b i j) = Cert.AttnSpec.colSoftmax (Cert.AttnSpec.logit q k b j) i := by
  rw [val_main_v13_apply, colExp_apply, colSumBcast_apply]
  rfl

/-- The reference's weights are the specification's. -/
theorem weights_eq (q k : (⟨S8x256x2048, .f32⟩ : BufTy).Contents (Elt Ideal)) :
    val_main_v13 (F := Ideal) q k = Cert.AttnSpec.weights q k := by
  funext y
  obtain ⟨b, i, j, rfl⟩ : ∃ (b : Fin 8) (i j : Fin 2048), y = ix3 b i j := ⟨y 0, y 1, y 2, eq_ix3 y⟩
  exact softmax_apply q k b i j

/-- The reference's output is the specification's: the values contracted with the weights over the keys. -/
theorem out_eq (q k v : (⟨S8x256x2048, .f32⟩ : BufTy).Contents (Elt Ideal)) :
    val_main_v14 (F := Ideal) q k v = Cert.AttnSpec.outp q k v := by
  funext y
  obtain ⟨b, c, j, rfl⟩ : ∃ (b : Fin 8) (c : Fin 256) (j : Fin 2048), y = ix3 b c j := ⟨y 0, y 1, y 2, eq_ix3 y⟩
  rw [val_main_v14_apply, weights_eq]
  show _ = ∑ i : Fin 2048, v (ix3 b c i) * Cert.AttnSpec.weights q k (ix3 b i j)
  refine Finset.sum_congr rfl fun i _ => ?_
  have el : lidx_main_v14 (ix3 b c j) i = ix3 b c i :=
    funext fun a => Fin.ext (by match a with | ⟨0, _⟩ => rfl | ⟨1, _⟩ => rfl | ⟨2, _⟩ => rfl)
  have er : ridx_main_v14 (ix3 b c j) i = ix3 b i j :=
    funext fun a => Fin.ext (by match a with | ⟨0, _⟩ => rfl | ⟨1, _⟩ => rfl | ⟨2, _⟩ => rfl)
  exact congrArg₂ (· * ·) (congrArg v el) (congrArg (Cert.AttnSpec.weights q k) er)

end Cert.ReferenceIdeal.RefValue

end
-- ==== Proof.lean ====
/- The proof of `Cert.Claim`: a batched attention step — scores `kᵀq / 16`, a softmax over the keys, the values
   contracted with the weights — computed by a tiled kernel and by a plain reference are the same two arrays on the
   extended reals.

   The kernel differs from the reference in four ways, none of which changes a value there. It works on one batch and
   512 query columns at a time (the softmax is over the keys, all of which every tile has, so each tile is complete by
   itself and the tiles cover the result arrays). It keeps the batch's key and value slabs in scratch memory across the
   four tiles of a batch, narrowed to a shorter float format (a change of format is the identity on the extended reals,
   and the first tile of a batch is seen, by induction on the grid position, to leave what the later ones find). It
   multiplies the queries by 1/16 before the contraction where the reference multiplies the scores after it (the
   factor is nonnegative and finite, and such a factor moves across a finite sum of extended reals whatever the terms
   are). And the reference takes one more maximum with `-∞` of a maximum already folded from `-∞`. So no finiteness of
   the inputs is used: the two sides are one function of the arguments, `Cert.AttnSpec.outp` and `Cert.AttnSpec.weights`.

   Proof/Spec.lean states that function; Proof/RefSpec.lean reads the reference's run as it, one operation at a time;
   Proof/PayValue.lean reads the kernel body's arithmetic at an index; Proof/PieceValue.lean what a grid step leaves in
   its output blocks and scratch; Proof/BlockRead.lean where the blocks sit in the arrays; Proof/KernelValue.lean puts
   the kernel's run together. The three frames are the generated frame runs; the idealization rewrote nothing. -/
import proofs.«149729_j88888643158200_2_alg».proof.Defs
import proofs.«149729_j88888643158200_2_alg».proof.Proof.Gen.Kernel
import proofs.«149729_j88888643158200_2_alg».proof.Proof.Gen.Kernel.Skeleton
import proofs.«149729_j88888643158200_2_alg».proof.Proof.Gen.Kernel.Launch
import proofs.«149729_j88888643158200_2_alg».proof.Proof.Gen.Kernel.Points
import proofs.«149729_j88888643158200_2_alg».proof.Proof.Gen.Kernel.Frame
import proofs.«149729_j88888643158200_2_alg».proof.Proof.Gen.KernelIdeal
import proofs.«149729_j88888643158200_2_alg».proof.Proof.Gen.KernelIdeal.Skeleton
import proofs.«149729_j88888643158200_2_alg».proof.Proof.Gen.KernelIdeal.Launch
import proofs.«149729_j88888643158200_2_alg».proof.Proof.Gen.KernelIdeal.Points
import proofs.«149729_j88888643158200_2_alg».proof.Proof.Gen.KernelIdeal.Frame
import proofs.«149729_j88888643158200_2_alg».proof.Proof.Gen.KernelIdeal.Value
import proofs.«149729_j88888643158200_2_alg».proof.Proof.Gen.ReferenceIdeal
import proofs.«149729_j88888643158200_2_alg».proof.Proof.Gen.ReferenceIdeal.Run
import proofs.«149729_j88888643158200_2_alg».proof.Proof.Gen.ReferenceIdeal.Read
import proofs.«149729_j88888643158200_2_alg».proof.Proof.Gen.Pre_finite_inputs
import proofs.«149729_j88888643158200_2_alg».proof.Proof.KernelValue
import proofs.«149729_j88888643158200_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments as launched: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the output array at `outp q k v` and the weights
    array at `weights q k`: the kernel by its run read block by block, the reference by its run read operation by
    operation. -/
theorem algebraic : Cert.algebraic_KernelIdeal_ReferenceIdeal := by
  intro m ρ m' ρ' _ hagree
  refine ⟨_, _, Cert.KernelIdeal.AttnValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.RefValue.out_eq, (hagree c).1, (hagree c).2.1,
      (hagree c).2.2]
  · rw [Cert.ReferenceIdeal.Read.val_main_v13_eq, Cert.ReferenceIdeal.RefValue.weights_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
